-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S4096 : Shape := ⟨1, ![4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S32x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S32x4096 : Shape := ⟨2, ![32, 4096]⟩
abbrev S4096x4096 : Shape := ⟨2, ![4096, 4096]⟩
abbrev S4096 : Shape := ⟨1, ![4096]⟩
abbrev S2048x1024 : Shape := ⟨2, ![2048, 1024]⟩
abbrev S2048 : Shape := ⟨1, ![2048]⟩
abbrev S32x2048 : Shape := ⟨2, ![32, 2048]⟩
abbrev S32x1024 : Shape := ⟨2, ![32, 1024]⟩
abbrev S1x2048 : Shape := ⟨2, ![1, 2048]⟩

abbrev nBuf : Space → Nat
  | .hbm => 8
  | .vmem => 16
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S32x4096, .f32⟩
  | .local _ .vmem, ⟨0, _⟩ => ⟨S32x4096, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S2048, .f32⟩
  | .local _ .vmem, ⟨12, _⟩ => ⟨S2048, .f32⟩
  | .local _ .vmem, ⟨13, _⟩ => ⟨S32x2048, .f32⟩
  | .local _ .vmem, ⟨14, _⟩ => ⟨S32x2048, .f32⟩
  | .local _ .vmem, ⟨15, _⟩ => ⟨S32x2048, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  h_S32x1024 : 0 < S32x1024.numel
  inb_S2048x1024_S2048x1024_0_0 : ∀ a, (![0, 0] : Fin 2 → Nat) a + S2048x1024.size a ≤ S2048x1024.size a
  h_S2048x1024 : 0 < S2048x1024.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S32x2048 : S1x2048.Broadcasts S32x2048
  dot_S32x1024_S2048x1024_S32x2048_1_1_0_0_n_n_wf : DotDims.WF S32x1024 S2048x1024 S32x2048 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S32x1024.size a ≤ S32x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .f32 = 32 ∨ (Rect.block (s := S4096x4096) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x4096.size a
  hwx0_2 : ∀ i : grid0.Coords, EltTy.bits .f32 = 32 ∨ (Rect.block (s := S4096x4096) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S4096.size a
  hwx0_4 : ∀ i : grid0.Coords, EltTy.bits .f32 = 32 ∨ (Rect.block (s := S4096) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S4096.size a
  hwx0_5 : ∀ i : grid0.Coords, EltTy.bits .f32 = 32 ∨ (Rect.block (s := S4096) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S4096.size a
  hwx0_6 : ∀ i : grid0.Coords, EltTy.bits .f32 = 32 ∨ (Rect.block (s := S4096) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x2048.size a ≤ S32x4096.size a
  hwx0_7 : ∀ i : grid0.Coords, EltTy.bits .f32 = 32 ∨ (Rect.block (s := S32x4096) S32x2048.size (cc0_transform_7 i) (hinb0_7 i)).WholeWords (EltTy.packing .f32)

variable [Facts₀]

def dot_S32x1024_S2048x1024_S32x2048_1_1_0_0_n_n : DotDims S32x1024 S2048x1024 S32x2048 where
  lhsContracting := [1]
  rhsContracting := [1]
  lhsNonContracting := [0]
  rhsNonContracting := [0]
  lhsBatch := []
  rhsBatch := []
  wf := dot_S32x1024_S2048x1024_S32x2048_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S32x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S32x4096 : Shape := ⟨2, ![32, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S32x4096, .f32⟩
  | .hbm, ⟨14, _⟩ => ⟨S1x4096, .f32⟩
  | .hbm, ⟨15, _⟩ => ⟨S32x4096, .f32⟩
  | .hbm, ⟨16, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  dot_S32x4096_S4096x4096_S32x4096_1_1_0_0_n_n_wf : DotDims.WF S32x4096 S4096x4096 S32x4096 [1] [1] [0] [0] [] []

variable [Facts₀]

def dot_S32x4096_S4096x4096_S32x4096_1_1_0_0_n_n : DotDims S32x4096 S4096x4096 S32x4096 where
  lhsContracting := [1]
  rhsContracting := [1]
  lhsNonContracting := [0]
  rhsNonContracting := [0]
  lhsBatch := []
  rhsBatch := []
  wf := dot_S32x4096_S4096x4096_S32x4096_1_1_0_0_n_n_wf

class Facts : Prop extends Facts₀ where

variable [Facts]
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.Spec.lean ====
/-
  A linear layer whose weights and biases are sampled by reparameterization, as ONE function of its seven arrays
  over the extended reals:

      out[b, o] = (∑ i < 4096, x[b, i] · W[o, i]) + β[o],
      W[o, i] = mean_w[o, i] + exp(sigma_w[o, i]) · eps_w[o, i],   β[o] = mean_b[o] + exp(sigma_b[o]) · eps_b[o].

  The contraction over the 4096 columns is also the sum of four tiles of 1024 columns each, and the partial sums over
  the first tiles are what an accumulator that adds one tile at a time holds on the way. Only the commutative-monoid
  laws of + are used: the regrouping holds at the infinities too, so no finiteness is needed anywhere.
-/
import Idealize.ShloMosaic.PureOps.Ideal
import Idealize.ShloMosaic.Lib.ValueIdx
import proofs.«151765_j53558242181640_2_alg».proof.Proof.LibSums

noncomputable section

open scoped BigOperators

namespace Cert.SampledLinear

open Idealize.ShloMosaic Idealize.ShloMosaic.ValueIdx

/-- The shapes of the activations and result, of the three weight arrays, of the three bias arrays, and of one
    accumulator tile (32 rows, 2048 of the 4096 output columns). -/
abbrev SX : Shape := ⟨2, ![32, 4096]⟩
abbrev SW : Shape := ⟨2, ![4096, 4096]⟩
abbrev SB : Shape := ⟨1, ![4096]⟩
abbrev SAcc : Shape := ⟨2, ![32, 2048]⟩

/-- The sampled weight at output row `o`, column `i`. -/
def weight (mw sw ew : SW.Idx → EReal) (o i : Fin 4096) : EReal :=
  mw (ix2 o i) + Ideal.exp (sw (ix2 o i)) * ew (ix2 o i)

/-- The sampled bias of output `o`. -/
def bias (mb sb eb : SB.Idx → EReal) (o : Fin 4096) : EReal :=
  mb (ix1 o) + Ideal.exp (sb (ix1 o)) * eb (ix1 o)

/-- The layer: activations times the transposed sampled weights, plus the sampled bias. -/
def linear (x : SX.Idx → EReal) (mw sw ew : SW.Idx → EReal) (mb sb eb : SB.Idx → EReal) : SX.Idx → EReal := fun j =>
  (∑ i : Fin 4096, x (ix2 (j 0) i) * weight mw sw ew (j 1) i) + bias mb sb eb (j 1)

/-! ## Tiles of the contraction -/

/-- Column `r` of column tile `k` (for `k < 4` it is `1024·k + r`; the reduction keeps it a column for every `k`). -/
def col (k : Nat) (r : Fin 1024) : Fin 4096 := ⟨(1024 * k + r.val) % 4096, Nat.mod_lt _ (by norm_num)⟩

/-- Output `o` of output tile `i` (for `i < 2` it is `2048·i + o`). -/
def row (i : Nat) (o : Fin 2048) : Fin 4096 := ⟨(2048 * i + o.val) % 4096, Nat.mod_lt _ (by norm_num)⟩

theorem col_val {k : Nat} (hk : k < 4) (r : Fin 1024) : (col k r).val = 1024 * k + r.val := by
  have hr := r.isLt
  show (1024 * k + r.val) % 4096 = 1024 * k + r.val
  exact Nat.mod_eq_of_lt (by omega)

theorem row_val {i : Nat} (hi : i < 2) (o : Fin 2048) : (row i o).val = 2048 * i + o.val := by
  have ho := o.isLt
  show (2048 * i + o.val) % 4096 = 2048 * i + o.val
  exact Nat.mod_eq_of_lt (by omega)

/-- Column tile `k`'s part of the dot product of activation row `b` with weight row `o`. -/
def tile (x : SX.Idx → EReal) (w : Fin 4096 → Fin 4096 → EReal) (b : Fin 32) (o : Fin 4096) (k : Nat) : EReal :=
  ∑ r : Fin 1024, x (ix2 b (col k r)) * w o (col k r)

/-- The four tiles together are the whole contraction. -/
theorem sum_tiles (x : SX.Idx → EReal) (w : Fin 4096 → Fin 4096 → EReal) (b : Fin 32) (o : Fin 4096) :
    ∑ k ∈ Finset.range 4, tile x w b o k = ∑ i : Fin 4096, x (ix2 b i) * w o i := by
  rw [Finset.sum_range]
  refine Eq.trans ?_ (LibSums.sum_by_tiles (T := 4) (R := 1024) (N := 4096) rfl (fun i => x (ix2 b i) * w o i)).symm
  refine Finset.sum_congr rfl fun k _ => Finset.sum_congr rfl fun r _ => ?_
  have e : col k.val r = ⟨1024 * k.val + r.val, LibSums.tile_lt rfl k r⟩ := Fin.ext (col_val k.isLt r)
  rw [e]

/-! ## The accumulator on the way -/

/-- What an accumulator over output tile `i` holds, at row `b` and output `o` of the tile, once column tiles `0 … q`
    have been added. -/
def partialAcc (x : SX.Idx → EReal) (w : Fin 4096 → Fin 4096 → EReal) (i q : Nat) (b : Fin 32) (o : Fin 2048) : EReal :=
  ∑ k ∈ Finset.range (q + 1), tile x w b (row i o) k

theorem partialAcc_zero (x : SX.Idx → EReal) (w : Fin 4096 → Fin 4096 → EReal) (i : Nat) (b : Fin 32) (o : Fin 2048) :
    partialAcc x w i 0 b o = tile x w b (row i o) 0 := by
  unfold partialAcc; rw [Finset.sum_range_one]

theorem partialAcc_succ (x : SX.Idx → EReal) (w : Fin 4096 → Fin 4096 → EReal) (i q : Nat) (b : Fin 32) (o : Fin 2048) :
    partialAcc x w i (q + 1) b o = partialAcc x w i q b o + tile x w b (row i o) (q + 1) := by
  unfold partialAcc; rw [Finset.sum_range_succ]

/-- After the fourth tile the accumulator holds the contraction; adding the bias gives the layer's value at the
    accumulator's position in the result. -/
theorem partialAcc_last_add_bias (x : SX.Idx → EReal) (mw sw ew : SW.Idx → EReal) (mb sb eb : SB.Idx → EReal)
    (i : Nat) (b : Fin 32) (o : Fin 2048) :
    partialAcc x (weight mw sw ew) i 3 b o + bias mb sb eb (row i o)
      = linear x mw sw ew mb sb eb (ix2 b (row i o)) := by
  show (∑ k ∈ Finset.range 4, tile x (weight mw sw ew) b (row i o) k) + bias mb sb eb (row i o)
    = (∑ j : Fin 4096, x (ix2 b j) * weight mw sw ew (row i o) j) + bias mb sb eb (row i o)
  rw [sum_tiles]

end Cert.SampledLinear

end
-- ==== Proof.RefIsLinear.lean ====
/-
  The reference program's result, read index by index at the extended reals, is the sampled linear layer: its
  `dot_general` contracts column `k` of the activations with column `k` of the sampled weights, and its two
  broadcasts carry the sampled bias of output `o` to every row.
-/
import proofs.«151765_j53558242181640_2_alg».proof.Proof.Gen.ReferenceIdeal.Read
import proofs.«151765_j53558242181640_2_alg».proof.Proof.Spec

noncomputable section

open scoped BigOperators

namespace Cert.ReferenceIdeal.RefValue

open Cert.ReferenceIdeal Cert.ReferenceIdeal.Read Cert.SampledLinear
open Idealize.ShloMosaic Idealize.ShloMosaic.ValueIdx

/-- The left operand of the contraction is read at (row of the result, `k`). -/
theorem lidx_eq (i : S32x4096.Idx) (k : Fin 4096) : lidx_main_v6 i k = ix2 (i 0) k :=
  funext fun a => Fin.ext (by match a with | ⟨0, _⟩ => rfl | ⟨1, _⟩ => rfl)

/-- The right operand is read at (column of the result, `k`): the weights enter transposed. -/
theorem ridx_eq (i : S32x4096.Idx) (k : Fin 4096) : ridx_main_v6 i k = ix2 (i 1) k :=
  funext fun a => Fin.ext (by match a with | ⟨0, _⟩ => rfl | ⟨1, _⟩ => rfl)

/-- The two broadcasts read the bias vector at the result's column. -/
theorem bidx_eq (i : S32x4096.Idx) : idx_main_v7 (idx_main_v8 i) = ix1 (i 1) :=
  funext fun a => Fin.ext (by match a with | ⟨0, _⟩ => rfl)

/-- The reference's last stage is the layer. -/
theorem ref_eq_linear (x0 : (⟨S32x4096, .f32⟩ : BufTy).Contents (Elt Ideal))
    (x1 x2 : (⟨S4096x4096, .f32⟩ : BufTy).Contents (Elt Ideal)) (x3 x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v9 (F := Ideal) x0 x1 x2 x3 x4 x5 x6 = linear x0 x1 x2 x5 x3 x4 x6 := by
  funext i
  rw [val_main_v9_apply, val_main_v6_apply, val_main_v8_apply, val_main_v7_apply, val_main_v5_apply,
    val_main_v4_apply, val_main_v3_apply, bidx_eq]
  simp only [val_main_v2_apply, val_main_v1_apply, val_main_v0_apply, lidx_eq, ridx_eq,
    Ideal.addf_def, Ideal.mulf_def, Ideal.hostUnary_exp_def]
  rfl

end Cert.ReferenceIdeal.RefValue

end
-- ==== Proof.Pieces.lean ====
/-
  What one run of the kernel body leaves behind, as values of what it loaded.

  The body keeps a 32 × 2048 accumulator between grid points. Each run loads 1024 columns of the activations and one
  2048 × 1024 tile of the three weight arrays and stores, whole, the accumulator plus their product; at the first
  column tile it stores zeros first and reads them back, and at the last it also stores, whole, into the output's
  buffer the accumulator it has just written plus the sampled bias. Every store covers its whole buffer and every
  load but the activations' reads a whole buffer, so what each buffer ends holding is the last store's payload.
-/
import proofs.«151765_j53558242181640_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- The 1024 columns of the (wholly staged) activations that the body loads at grid point `i`. -/
def xcols (i : grid0.Coords) (x0 : Vec F S32x4096 .f32) : Vec F S32x1024 .f32 :=
  View.ld x0 (Rect.unit (s := S32x4096) (k0_off1 i) S32x1024.size (k0_off1_inb i))

/-- The accumulator after a run that finds `acc` in it: `acc` plus this point's tile product. -/
abbrev step (i : grid0.Coords) (x0 : Vec F S32x4096 .f32) (x1 x2 x3 : Vec F S2048x1024 .f32) (acc : Vec F S32x2048 .f32) :
    Vec F S32x2048 .f32 :=
  k0_pay2 (xcols i x0) x1 x2 x3 acc

/-- A run at a middle column tile leaves the accumulator one step on. -/
theorem sout_B (c : Dev nD) (i : grid0.Coords) (arg2 : Memref sig .tc .vmem S32x4096 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048 .f32) (harg6 : arg6.IsWhole) (arg7 : Memref sig .tc .vmem S2048 .f32) (harg7 : arg7.IsWhole) (arg8 : Memref sig .tc .vmem S2048 .f32) (harg8 : arg8.IsWhole) (arg9 : Memref sig .tc .vmem S32x2048 .f32) (harg9 : arg9.IsWhole) (arg10 : Memref sig .tc .vmem S32x2048 .f32) (harg10 : arg10.IsWhole) (hc0 : ¬cond0_0 i) (hc1 : ¬cond0_1 i) (x0 : Vec F S32x4096 .f32) (x1 x2 x3 : Vec F S2048x1024 .f32) (x4 x5 x6 : Vec F S2048 .f32) (xs0 : Vec F S32x2048 .f32) :
    sout0_B_0 c i arg2 harg2 arg3 harg3 arg4 harg4 arg5 harg5 arg6 harg6 arg7 harg7 arg8 harg8 arg9 harg9 arg10 harg10 hc0 hc1 x0 x1 x2 x3 x4 x5 x6 xs0 = step i x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz2]
  simp only [View.readAt_eq_ld, harg2.read_unread, harg3.read_unread, harg4.read_unread, harg5.read_unread, harg6.read_unread, harg7.read_unread, harg8.read_unread, harg10.read_unread, View.ld_unit_zero (S := S2048x1024) hz2, View.ld_unit_zero (S := S32x2048) hz2, View.ld_unit_zero (S := S2048) hz1]
  rfl

/-- A run at the first column tile leaves one step on from the zeros it stored and read back. -/
theorem sout_A (c : Dev nD) (i : grid0.Coords) (arg2 : Memref sig .tc .vmem S32x4096 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048 .f32) (harg6 : arg6.IsWhole) (arg7 : Memref sig .tc .vmem S2048 .f32) (harg7 : arg7.IsWhole) (arg8 : Memref sig .tc .vmem S2048 .f32) (harg8 : arg8.IsWhole) (arg9 : Memref sig .tc .vmem S32x2048 .f32) (harg9 : arg9.IsWhole) (arg10 : Memref sig .tc .vmem S32x2048 .f32) (harg10 : arg10.IsWhole) (hc0 : cond0_0 i) (hc1 : ¬cond0_1 i) (x0 : Vec F S32x4096 .f32) (x1 x2 x3 : Vec F S2048x1024 .f32) (x4 x5 x6 : Vec F S2048 .f32) :
    sout0_A_0 c i arg2 harg2 arg3 harg3 arg4 harg4 arg5 harg5 arg6 harg6 arg7 harg7 arg8 harg8 arg9 harg9 arg10 harg10 hc0 hc1 x0 x1 x2 x3 x4 x5 x6 = step i x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S32x2048) hz2, View.readCov_unit_zero (S := S32x2048) _ hz2]
  simp only [View.readAt_eq_ld, harg2.read_unread, harg3.read_unread, harg4.read_unread, harg5.read_unread, harg6.read_unread, harg7.read_unread, harg8.read_unread, harg10.read_unread, View.ld_unit_zero (S := S2048x1024) hz2, View.ld_unit_zero (S := S32x2048) hz2, View.ld_unit_zero (S := S2048) hz1]
  rfl

/-- A run at the last column tile leaves the accumulator one step on, -/
theorem sout_C (c : Dev nD) (i : grid0.Coords) (arg2 : Memref sig .tc .vmem S32x4096 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048 .f32) (harg6 : arg6.IsWhole) (arg7 : Memref sig .tc .vmem S2048 .f32) (harg7 : arg7.IsWhole) (arg8 : Memref sig .tc .vmem S2048 .f32) (harg8 : arg8.IsWhole) (arg9 : Memref sig .tc .vmem S32x2048 .f32) (harg9 : arg9.IsWhole) (arg10 : Memref sig .tc .vmem S32x2048 .f32) (harg10 : arg10.IsWhole) (hc0 : ¬cond0_0 i) (hc1 : cond0_1 i) (x0 : Vec F S32x4096 .f32) (x1 x2 x3 : Vec F S2048x1024 .f32) (x4 x5 x6 : Vec F S2048 .f32) (xs0 : Vec F S32x2048 .f32) :
    sout0_C_0 c i arg2 harg2 arg3 harg3 arg4 harg4 arg5 harg5 arg6 harg6 arg7 harg7 arg8 harg8 arg9 harg9 arg10 harg10 hc0 hc1 x0 x1 x2 x3 x4 x5 x6 xs0 = step i x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S2048x1024) hz2, View.ld_unit_zero (S := S32x2048) hz2, View.ld_unit_zero (S := S2048) hz1]
  rfl

/-- and the output's buffer at that accumulator (read back) plus the sampled bias. -/
theorem out_C (c : Dev nD) (i : grid0.Coords) (arg2 : Memref sig .tc .vmem S32x4096 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048 .f32) (harg6 : arg6.IsWhole) (arg7 : Memref sig .tc .vmem S2048 .f32) (harg7 : arg7.IsWhole) (arg8 : Memref sig .tc .vmem S2048 .f32) (harg8 : arg8.IsWhole) (arg9 : Memref sig .tc .vmem S32x2048 .f32) (harg9 : arg9.IsWhole) (arg10 : Memref sig .tc .vmem S32x2048 .f32) (harg10 : arg10.IsWhole) (hc0 : ¬cond0_0 i) (hc1 : cond0_1 i) (x0 : Vec F S32x4096 .f32) (x1 x2 x3 : Vec F S2048x1024 .f32) (x4 x5 x6 : Vec F S2048 .f32) (xs0 : Vec F S32x2048 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 x4 x5 x6 (step i x0 x1 x2 x3 xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2, View.readCov_unit_zero (S := S32x2048) _ hz2]
  simp only [View.readAt_eq_ld, harg2.read_unread, harg3.read_unread, harg4.read_unread, harg5.read_unread, harg6.read_unread, harg7.read_unread, harg8.read_unread, harg10.read_unread, View.ld_unit_zero (S := S2048x1024) hz2, View.ld_unit_zero (S := S32x2048) hz2, View.ld_unit_zero (S := S2048) hz1]
  rfl

end Cert.KernelIdeal.Pieces

end
-- ==== Proof.Blocks.lean ====
/-
  The windows' blocks at a grid point, read at an index of the whole arrays.

  The grid has 2 × 4 points; point `t` works on output tile `t / 4` (2048 of the 4096 outputs) and column tile
  `t % 4` (1024 of the 4096 columns). There the three weight windows hold rows `2048·(t/4) + o`, columns
  `1024·(t%4) + r` of their arrays, the three bias windows entries `2048·(t/4) + o`, the activations are staged
  whole and the body loads their columns `1024·(t%4) + r`; the output window's block is rows 0 … 31, columns
  `2048·(t/4) + o` of the result.
-/
import proofs.«151765_j53558242181640_2_alg».proof.Proof.Pieces
import proofs.«151765_j53558242181640_2_alg».proof.Proof.Spec

noncomputable section

namespace Cert.KernelIdeal.Blocks

open Cert.KernelIdeal Cert.KernelIdeal.Gen Cert.KernelIdeal.Pieces Cert.SampledLinear
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps and the body's column offset, decided once over the eight grid points. -/
theorem idx_facts : ∀ t : Fin cfg0.N,
    (win0_0.index t (0 : Fin 2) = 0 ∧ win0_0.index t (1 : Fin 2) = 0)
    ∧ (win0_1.index t (0 : Fin 2) = t.val / 4 ∧ win0_1.index t (1 : Fin 2) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4)
    ∧ win0_4.index t (0 : Fin 1) = t.val / 4
    ∧ win0_5.index t (0 : Fin 1) = t.val / 4
    ∧ win0_6.index t (0 : Fin 1) = t.val / 4
    ∧ (win0_7.index t (0 : Fin 2) = 0 ∧ win0_7.index t (1 : Fin 2) = t.val / 4)
    ∧ (k0_off1 (grid0.coords t) (0 : Fin 2) = 0 ∧ k0_off1 (grid0.coords t) (1 : Fin 2) = 1024 * (t.val % 4)) :=
  (by decide +kernel : ∀ t : Fin grid0.N, _)

theorem point_lt (t : Fin cfg0.N) : t.val < 8 := lt_of_lt_of_eq t.isLt (show cfg0.N = 8 from N_0)

/-- The block of the weight means at (o, r). -/
theorem iblk1_apply (c : Dev nD) (t : Fin cfg0.N) (o : Fin 2048) (r : Fin 1024) :
    (iblk m c 1 t : Vec F S2048x1024 .f32) (ix2 o r) = V m c main_arg1 (ix2 (row (t.val / 4) o) (col (t.val % 4) r)) := by
  have hN := point_lt t
  obtain ⟨-, ⟨e0, e1⟩, -⟩ := idx_facts t
  unfold iblk
  rw [View.read_apply]
  show V m c main_arg1 _ = V m c main_arg1 _
  congr 1
  funext a
  apply Fin.ext
  match a with
  | ⟨0, _⟩ =>
    show win0_1.index t (0 : Fin 2) * 2048 + 1 * o.val = (row (t.val / 4) o).val
    rw [row_val (by omega), e0]; omega
  | ⟨1, _⟩ =>
    show win0_1.index t (1 : Fin 2) * 1024 + 1 * r.val = (col (t.val % 4) r).val
    rw [col_val (by omega), e1]; omega

/-- The block of the weight log-deviations at (o, r). -/
theorem iblk2_apply (c : Dev nD) (t : Fin cfg0.N) (o : Fin 2048) (r : Fin 1024) :
    (iblk m c 2 t : Vec F S2048x1024 .f32) (ix2 o r) = V m c main_arg2 (ix2 (row (t.val / 4) o) (col (t.val % 4) r)) := by
  have hN := point_lt t
  obtain ⟨-, -, ⟨e0, e1⟩, -⟩ := idx_facts t
  unfold iblk
  rw [View.read_apply]
  show V m c main_arg2 _ = V m c main_arg2 _
  congr 1
  funext a
  apply Fin.ext
  match a with
  | ⟨0, _⟩ =>
    show win0_2.index t (0 : Fin 2) * 2048 + 1 * o.val = (row (t.val / 4) o).val
    rw [row_val (by omega), e0]; omega
  | ⟨1, _⟩ =>
    show win0_2.index t (1 : Fin 2) * 1024 + 1 * r.val = (col (t.val % 4) r).val
    rw [col_val (by omega), e1]; omega

/-- The block of the weight noise at (o, r). -/
theorem iblk3_apply (c : Dev nD) (t : Fin cfg0.N) (o : Fin 2048) (r : Fin 1024) :
    (iblk m c 3 t : Vec F S2048x1024 .f32) (ix2 o r) = V m c main_arg5 (ix2 (row (t.val / 4) o) (col (t.val % 4) r)) := by
  have hN := point_lt t
  obtain ⟨-, -, -, ⟨e0, e1⟩, -⟩ := idx_facts t
  unfold iblk
  rw [View.read_apply]
  show V m c main_arg5 _ = V m c main_arg5 _
  congr 1
  funext a
  apply Fin.ext
  match a with
  | ⟨0, _⟩ =>
    show win0_3.index t (0 : Fin 2) * 2048 + 1 * o.val = (row (t.val / 4) o).val
    rw [row_val (by omega), e0]; omega
  | ⟨1, _⟩ =>
    show win0_3.index t (1 : Fin 2) * 1024 + 1 * r.val = (col (t.val % 4) r).val
    rw [col_val (by omega), e1]; omega

/-- The block of the bias means at o. -/
theorem iblk4_apply (c : Dev nD) (t : Fin cfg0.N) (o : Fin 2048) :
    (iblk m c 4 t : Vec F S2048 .f32) (ix1 o) = V m c main_arg3 (ix1 (row (t.val / 4) o)) := by
  have hN := point_lt t
  obtain ⟨-, -, -, -, e0, -⟩ := idx_facts t
  unfold iblk
  rw [View.read_apply]
  show V m c main_arg3 _ = V m c main_arg3 _
  congr 1
  funext a
  apply Fin.ext
  match a with
  | ⟨0, _⟩ =>
    show win0_4.index t (0 : Fin 1) * 2048 + 1 * o.val = (row (t.val / 4) o).val
    rw [row_val (by omega), e0]; omega

/-- The block of the bias log-deviations at o. -/
theorem iblk5_apply (c : Dev nD) (t : Fin cfg0.N) (o : Fin 2048) :
    (iblk m c 5 t : Vec F S2048 .f32) (ix1 o) = V m c main_arg4 (ix1 (row (t.val / 4) o)) := by
  have hN := point_lt t
  obtain ⟨-, -, -, -, -, e0, -⟩ := idx_facts t
  unfold iblk
  rw [View.read_apply]
  show V m c main_arg4 _ = V m c main_arg4 _
  congr 1
  funext a
  apply Fin.ext
  match a with
  | ⟨0, _⟩ =>
    show win0_5.index t (0 : Fin 1) * 2048 + 1 * o.val = (row (t.val / 4) o).val
    rw [row_val (by omega), e0]; omega

/-- The block of the bias noise at o. -/
theorem iblk6_apply (c : Dev nD) (t : Fin cfg0.N) (o : Fin 2048) :
    (iblk m c 6 t : Vec F S2048 .f32) (ix1 o) = V m c main_arg6 (ix1 (row (t.val / 4) o)) := by
  have hN := point_lt t
  obtain ⟨-, -, -, -, -, -, e0, -⟩ := idx_facts t
  unfold iblk
  rw [View.read_apply]
  show V m c main_arg6 _ = V m c main_arg6 _
  congr 1
  funext a
  apply Fin.ext
  match a with
  | ⟨0, _⟩ =>
    show win0_6.index t (0 : Fin 1) * 2048 + 1 * o.val = (row (t.val / 4) o).val
    rw [row_val (by omega), e0]; omega

/-- The columns of the activations the body loads at point `t`, at (b, r): the activations' window is the whole
    array, and the load starts at column `1024·(t%4)`. -/
theorem xcols_apply (c : Dev nD) (t : Fin cfg0.N) (b : Fin 32) (r : Fin 1024) :
    xcols (grid0.coords t) (iblk m c 0 t : Vec F S32x4096 .f32) (ix2 b r) = V m c main_arg0 (ix2 b (col (t.val % 4) r)) := by
  have hN := point_lt t
  obtain ⟨⟨e0, e1⟩, -, -, -, -, -, -, -, ⟨f0, f1⟩⟩ := idx_facts t
  unfold xcols iblk
  show ((cfg0.win 0).blk t).view.read (Elt F) (V m c main_arg0) _ = _
  rw [View.read_apply]
  show V m c main_arg0 _ = V m c main_arg0 _
  congr 1
  funext a
  apply Fin.ext
  match a with
  | ⟨0, _⟩ =>
    show win0_0.index t (0 : Fin 2) * 32 + 1 * (k0_off1 (grid0.coords t) (0 : Fin 2) + 1 * b.val) = b.val
    rw [e0, f0]; omega
  | ⟨1, _⟩ =>
    show win0_0.index t (1 : Fin 2) * 4096 + 1 * (k0_off1 (grid0.coords t) (1 : Fin 2) + 1 * r.val) = (col (t.val % 4) r).val
    rw [col_val (by omega), e1, f1]; omega

/-- The output window's block at point `t` sits at rows 0 … 31, columns `2048·(t/4) + o` of the result. -/
theorem oblk_emb (t : Fin cfg0.N) (b : Fin 32) (o : Fin 2048) :
    ((cfg0.win 7).blk t).view.emb (ix2 b o) = ix2 b (row (t.val / 4) o) := by
  have hN := point_lt t
  obtain ⟨-, -, -, -, -, -, -, ⟨e0, e1⟩, -⟩ := idx_facts t
  funext a
  apply Fin.ext
  match a with
  | ⟨0, _⟩ =>
    show win0_7.index t (0 : Fin 2) * 32 + 1 * b.val = b.val
    rw [e0]; omega
  | ⟨1, _⟩ =>
    show win0_7.index t (1 : Fin 2) * 2048 + 1 * o.val = (row (t.val / 4) o).val
    rw [row_val (by omega), e1]; omega

end Cert.KernelIdeal.Blocks

end
-- ==== Proof.PayloadAt.lean ====
/-
  The body's three stored values, read at an index over the extended reals:

    * the reset value is 0 everywhere;
    * one accumulation step adds to the accumulator, at row `b` and output `o` of the tile, the sum over the 1024
      loaded columns `r` of activation (b, r) times the sampled weight (o, r) — the matrix unit contracts both
      operands along their second axis into a zero accumulator, which at the extended reals is just that sum;
    * the last store adds to the accumulator the sampled bias of output `o`, the bias vector being cast to one row
      and that row broadcast over the 32 rows.
-/
import proofs.«151765_j53558242181640_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAt

open Cert.KernelIdeal Cert.KernelIdeal.Gen
open Idealize.ShloMosaic Idealize.ShloMosaic.ValueIdx

/-- The reset value: zero at every index. -/
theorem pay1_apply (y : S32x2048.Idx) : k0_pay1 (F := Ideal) y = 0 := by
  unfold k0_pay1
  rw [shapeCast_self]
  show Ideal.ofBits .f32 0x00000000#32 = 0
  exact Ideal.ofBits_zero_f32

/-- The left operand of the contraction at result index `j` keeps `j`'s row … -/
theorem lhs_0 (j : S32x2048.Idx) (q : dot_S32x1024_S2048x1024_S32x2048_1_1_0_0_n_n.contr.Idx) : (dot_S32x1024_S2048x1024_S32x2048_1_1_0_0_n_n.lhsIdx j q 0).val = (j 0).val := by
  unfold DotDims.lhsIdx
  rw [dif_neg (show ¬(0 : Fin S32x1024.rank) ∈ dot_S32x1024_S2048x1024_S32x2048_1_1_0_0_n_n.lhsBatch by decide), dif_pos (show (0 : Fin S32x1024.rank) ∈ dot_S32x1024_S2048x1024_S32x2048_1_1_0_0_n_n.lhsNonContracting by decide)]
  rfl
/-- … and runs over the contracted columns; -/
theorem lhs_1 (j : S32x2048.Idx) (q : dot_S32x1024_S2048x1024_S32x2048_1_1_0_0_n_n.contr.Idx) : (dot_S32x1024_S2048x1024_S32x2048_1_1_0_0_n_n.lhsIdx j q 1).val = (q ⟨0, by decide⟩).val :=
  dot_S32x1024_S2048x1024_S32x2048_1_1_0_0_n_n.lhsIdx_val_of_single rfl j q
/-- the right operand's row is `j`'s column (the weights enter transposed) … -/
theorem rhs_0 (j : S32x2048.Idx) (q : dot_S32x1024_S2048x1024_S32x2048_1_1_0_0_n_n.contr.Idx) : (dot_S32x1024_S2048x1024_S32x2048_1_1_0_0_n_n.rhsIdx j q 0).val = (j 1).val := by
  unfold DotDims.rhsIdx
  rw [dif_neg (show ¬(0 : Fin S2048x1024.rank) ∈ dot_S32x1024_S2048x1024_S32x2048_1_1_0_0_n_n.rhsBatch by decide), dif_pos (show (0 : Fin S2048x1024.rank) ∈ dot_S32x1024_S2048x1024_S32x2048_1_1_0_0_n_n.rhsNonContracting by decide)]
  rfl
/-- … and its column the contracted one. -/
theorem rhs_1 (j : S32x2048.Idx) (q : dot_S32x1024_S2048x1024_S32x2048_1_1_0_0_n_n.contr.Idx) : (dot_S32x1024_S2048x1024_S32x2048_1_1_0_0_n_n.rhsIdx j q 1).val = (q ⟨0, by decide⟩).val :=
  dot_S32x1024_S2048x1024_S32x2048_1_1_0_0_n_n.rhsIdx_val_of_single rfl j q

/-- The tile product at (b, o): the sum over the loaded columns. -/
theorem matmul_tile_apply (l : FVec Ideal S32x1024 .f32) (w : FVec Ideal S2048x1024 .f32) (b : Fin 32) (o : Fin 2048) :
    matmul dot_S32x1024_S2048x1024_S32x2048_1_1_0_0_n_n none l w (constant S32x2048 .f32 0x00000000#32) (ix2 b o) = ∑ r : Fin 1024, l (ix2 b r) * w (ix2 o r) := by
  show FloatOps.matmul dot_S32x1024_S2048x1024_S32x2048_1_1_0_0_n_n none l w (constant S32x2048 .f32 0x00000000#32) (ix2 b o) = _
  rw [Ideal.matmul_constant_zero_apply, ← Equiv.sum_comp (contrEquiv1 dot_S32x1024_S2048x1024_S32x2048_1_1_0_0_n_n 1024 rfl rfl).symm]
  refine Finset.sum_congr rfl fun k _ => ?_
  have hk := contrEquiv1_symm_val dot_S32x1024_S2048x1024_S32x2048_1_1_0_0_n_n 1024 rfl rfl k
  have el : dot_S32x1024_S2048x1024_S32x2048_1_1_0_0_n_n.lhsIdx (ix2 b o) ((contrEquiv1 dot_S32x1024_S2048x1024_S32x2048_1_1_0_0_n_n 1024 rfl rfl).symm k) = ix2 b k := funext fun a => Fin.ext (by
    match a with
    | ⟨0, _⟩ => exact lhs_0 _ _
    | ⟨1, _⟩ => exact (lhs_1 _ _).trans hk)
  have er : dot_S32x1024_S2048x1024_S32x2048_1_1_0_0_n_n.rhsIdx (ix2 b o) ((contrEquiv1 dot_S32x1024_S2048x1024_S32x2048_1_1_0_0_n_n 1024 rfl rfl).symm k) = ix2 o k := funext fun a => Fin.ext (by
    match a with
    | ⟨0, _⟩ => exact rhs_0 _ _
    | ⟨1, _⟩ => exact (rhs_1 _ _).trans hk)
  rw [el, er]

/-- One accumulation step at (b, o). -/
theorem pay2_apply (v6 : Vec Ideal S32x1024 .f32) (v7 v8 v10 : Vec Ideal S2048x1024 .f32) (v13 : Vec Ideal S32x2048 .f32)
    (b : Fin 32) (o : Fin 2048) :
    k0_pay2 v6 v7 v8 v10 v13 (ix2 b o)
      = v13 (ix2 b o) + ∑ r : Fin 1024, v6 (ix2 b r) * (v7 (ix2 o r) + Ideal.exp (v8 (ix2 o r)) * v10 (ix2 o r)) := by
  unfold k0_pay2
  rw [shapeCast_self]
  refine (addf_apply _ _ _).trans ?_
  rw [matmul_tile_apply]
  rfl

/-- The last store at (b, o): the accumulator plus the sampled bias of output `o`. -/
theorem pay3_apply (v22 v23 v25 : Vec Ideal S2048 .f32) (v28 : Vec Ideal S32x2048 .f32) (b : Fin 32) (o : Fin 2048) :
    k0_pay3 v22 v23 v25 v28 (ix2 b o) = v28 (ix2 b o) + (v22 (ix1 o) + Ideal.exp (v23 (ix1 o)) * v25 (ix1 o)) := by
  unfold k0_pay3
  refine (addf_apply _ _ _).trans ?_
  rw [broadcastTo_1b_ab_apply, shapeCast_a_1a_apply]
  rfl

end Cert.KernelIdeal.PayloadAt

end
-- ==== Proof.Accumulate.lean ====
/-
  The accumulator after every grid point.

  Points 4·i, 4·i + 1, 4·i + 2, 4·i + 3 work on output tile `i`, column tiles 0, 1, 2, 3 in turn. The first of them
  resets the accumulator to zero and adds its tile product, each later one adds its own to what the point before
  left. So after point `n` the accumulator holds the sum of the tile products of column tiles `0 … n % 4` of output
  tile `n / 4` — by induction on the point, one step of the chain at a time.
-/
import proofs.«151765_j53558242181640_2_alg».proof.Proof.Blocks
import proofs.«151765_j53558242181640_2_alg».proof.Proof.PayloadAt

noncomputable section

open scoped BigOperators

namespace Cert.KernelIdeal.Acc

open Cert.KernelIdeal Cert.KernelIdeal.Gen Cert.KernelIdeal.Pieces Cert.SampledLinear
open Idealize.ShloMosaic Idealize.ShloMosaic.TcCoe Idealize.ShloMosaic.ValueIdx Idealize.SL.Sem

variable (m : (ℓ : Loc nD τ sig) → Buf (Elt Ideal) ℓ)

/-- The activations as the region finds them. -/
abbrev acts (c : Dev nD) : SX.Idx → EReal := V m c main_arg0

/-- The sampled weights of the arrays as the region finds them. -/
abbrev wts (c : Dev nD) : Fin 4096 → Fin 4096 → EReal :=
  weight (V m c main_arg1) (V m c main_arg2) (V m c main_arg5)

/-- One step at point `t` adds column tile `t % 4`'s product for output tile `t / 4`. -/
theorem step_apply (c : Dev nD) (t : Fin cfg0.N) (acc : Vec Ideal S32x2048 .f32) (b : Fin 32) (o : Fin 2048) :
    step (grid0.coords t) (iblk m c 0 t) (iblk m c 1 t) (iblk m c 2 t) (iblk m c 3 t) acc (ix2 b o)
      = acc (ix2 b o) + tile (acts m c) (wts m c) b (row (t.val / 4) o) (t.val % 4) := by
  refine (PayloadAt.pay2_apply (xcols (grid0.coords t) (iblk m c 0 t)) (iblk m c 1 t) (iblk m c 2 t) (iblk m c 3 t) acc b o).trans ?_
  refine congrArg (acc (ix2 b o) + ·) (Finset.sum_congr rfl fun r _ => ?_)
  rw [Blocks.xcols_apply, Blocks.iblk1_apply, Blocks.iblk2_apply, Blocks.iblk3_apply]
  rfl

/-- After a point at the first column tile: that tile's product alone (zero plus it). -/
theorem after_first (c : Dev nD) (t : Fin cfg0.N) (h0 : t.val % 4 = 0) (h1 : ¬t.val % 4 = 3) (b : Fin 32) (o : Fin 2048) :
    (outsAt0 m c t.val t.isLt).2 (ix2 b o) = tile (acts m c) (wts m c) b (row (t.val / 4) o) (t.val % 4) := by
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 b o)).trans ?_
  rw [step_apply m c t, PayloadAt.pay1_apply, zero_add]

/-- After a point at a later column tile: what the point before left, plus that tile's product. -/
theorem after_later (c : Dev nD) (t : Fin cfg0.N) (h0 : ¬t.val % 4 = 0) (b : Fin 32) (o : Fin 2048) :
    (outsAt0 m c t.val t.isLt).2 (ix2 b o)
      = (outsAt0 m c (t.val - 1) (Nat.lt_of_le_of_lt (Nat.sub_le _ _) t.isLt)).2 (ix2 b o)
        + tile (acts m c) (wts m c) b (row (t.val / 4) o) (t.val % 4) := by
  by_cases h1 : t.val % 4 = 3
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 b o)).trans ?_
    exact step_apply m c t _ b o
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 b o)).trans ?_
    exact step_apply m c t _ b o

/-- The accumulator after point `n`: column tiles `0 … n % 4` of output tile `n / 4`, summed. -/
theorem acc_eq (c : Dev nD) : ∀ (n : ℕ) (h : n < cfg0.N) (b : Fin 32) (o : Fin 2048),
    (outsAt0 m c n h).2 (ix2 b o) = partialAcc (acts m c) (wts m c) (n / 4) (n % 4) b o := by
  intro n
  induction n with
  | zero =>
    intro h b o
    refine (after_first m c ⟨0, h⟩ rfl (by dsimp only; omega) b o).trans ?_
    show tile (acts m c) (wts m c) b (row (0 / 4) o) (0 % 4) = partialAcc (acts m c) (wts m c) (0 / 4) (0 % 4) b o
    rw [Nat.zero_mod]
    exact (partialAcc_zero (acts m c) (wts m c) (0 / 4) b o).symm
  | succ n ih =>
    intro h b o
    have hN : n + 1 < 8 := lt_of_lt_of_eq h (show cfg0.N = 8 from N_0)
    by_cases h0 : (n + 1) % 4 = 0
    · refine (after_first m c ⟨n + 1, h⟩ h0 (by dsimp only; omega) b o).trans ?_
      show tile (acts m c) (wts m c) b (row ((n + 1) / 4) o) ((n + 1) % 4) = _
      rw [h0]
      exact (partialAcc_zero (acts m c) (wts m c) ((n + 1) / 4) b o).symm
    · refine (after_later m c ⟨n + 1, h⟩ h0 b o).trans ?_
      show (outsAt0 m c n _).2 (ix2 b o) + tile (acts m c) (wts m c) b (row ((n + 1) / 4) o) ((n + 1) % 4) = _
      have hq : (n + 1) / 4 = n / 4 := by omega
      have hr : (n + 1) % 4 = n % 4 + 1 := by omega
      rw [ih, hq, hr, partialAcc_succ]

end Cert.KernelIdeal.Acc

end
-- ==== Proof.Result.lean ====
/-
  The kernel's result array after the run is the sampled linear layer of its argument arrays.

  The output's buffer is written back only after the last column tile of each output tile (points 3 and 7). What
  is written there is the accumulator the point has just completed — the four column tiles' products, summed: the
  whole contraction — plus the sampled bias, at rows 0 … 31, outputs `2048·(t/4) + o`: the layer's own values on that
  block. The two blocks written back are the two halves of the result's columns, so every entry of the result ends
  at the layer's value.
-/
import proofs.«151765_j53558242181640_2_alg».proof.Proof.Accumulate
import proofs.«151765_j53558242181640_2_alg».proof.Proof.Gen.KernelIdeal.Value

noncomputable section

open scoped BigOperators

namespace Cert.KernelIdeal.Result

open Cert.KernelIdeal Cert.KernelIdeal.Gen Cert.KernelIdeal.Pieces Cert.KernelIdeal.Acc Cert.SampledLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer of the argument arrays as the region finds them (the weight noise is the kernel's sixth argument, the
    bias noise its seventh). -/
abbrev layer (c : Dev nD) : Buf (Elt Ideal) ((c : Thread nD τ).loc main_v0) :=
  linear (V m c main_arg0) (V m c main_arg1) (V m c main_arg2) (V m c main_arg5) (V m c main_arg3) (V m c main_arg4) (V m c main_arg6)

/-- What a point at the last column tile leaves in the output's buffer, entry by entry: the layer's value at the
    entry's place in the result. -/
theorem written_at (c : Dev nD) (t : Fin cfg0.N) (h0 : ¬t.val % 4 = 0) (h3 : t.val % 4 = 3) (y : S32x2048.Idx) :
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 y
      = layer m c (((cfg0.win 7).blk t).view.emb y) := by
  have hN := Blocks.point_lt t
  obtain ⟨b, o, rfl⟩ : ∃ (b : Fin 32) (o : Fin 2048), y = ix2 b o := ⟨y 0, y 1, eq_ix2 y⟩
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 b o)).trans ?_
  refine (PayloadAt.pay3_apply (iblk m c 4 t) (iblk m c 5 t) (iblk m c 6 t)
    (step (grid0.coords t) (iblk m c 0 t) (iblk m c 1 t) (iblk m c 2 t) (iblk m c 3 t) (outsAt0 m c (t.val - 1) (Nat.lt_of_le_of_lt (Nat.sub_le _ _) t.isLt)).2) b o).trans ?_
  rw [step_apply m c t, acc_eq m c (t.val - 1), Blocks.iblk4_apply, Blocks.iblk5_apply, Blocks.iblk6_apply, Blocks.oblk_emb]
  have hq : (t.val - 1) / 4 = t.val / 4 := by omega
  have hr : (t.val - 1) % 4 = 2 := by omega
  rw [hq, hr, h3]
  refine Eq.trans ?_ (partialAcc_last_add_bias (V m c main_arg0) (V m c main_arg1) (V m c main_arg2) (V m c main_arg5)
    (V m c main_arg3) (V m c main_arg4) (V m c main_arg6) (t.val / 4) b o)
  exact congrArg (· + bias (V m c main_arg3) (V m c main_arg4) (V m c main_arg6) (row (t.val / 4) o))
    (partialAcc_succ (acts m c) (wts m c) (t.val / 4) 2 b o).symm

/-- What a flushing point writes back is its block of the layer. -/
theorem flushed_eq (c : Dev nD) (t : Fin cfg0.N) (hf : (cfg0.win 7).flush t = true) :
    (dats m 0 c).flushed 7 t = ((cfg0.win 7).blk t).view.read (Elt Ideal) (layer m c) := by
  have h3 : t.val % 4 = 3 := (flush0_7 t).mp hf
  have h0 : ¬t.val % 4 = 0 := by omega
  rw [Value.flushed7_C m c t h0 h3]
  funext y
  rw [View.read_apply]
  exact written_at m c t h0 h3 y

/-- An entry of the result lies in point `t`'s block iff each coordinate lies in the block's range on its axis. -/
theorem mem_blk (t : Fin cfg0.N) (i : S32x4096.Idx) :
    i ∈ ((cfg0.win 7).blk t).view.set ↔ ∀ a : Fin 2, win0_7.index t a * S32x2048.size a ≤ (i a).val ∧ (i a).val < win0_7.index t a * S32x2048.size a + S32x2048.size a := by
  show i ∈ ((View.whole main_v0).slice (win0_7.rect t)).set ↔ _
  rw [View.set_slice_whole, Rect.mem_set_unit]
  exact Iff.rfl

/-- Every entry of the result is in the block some flushing point writes back: column `j` in that of the last point
    of output tile `j / 2048`. -/
theorem covered (i : S32x4096.Idx) : ∃ t : Fin cfg0.N, (cfg0.win 7).flush t = true ∧ i ∈ ((cfg0.win 7).blk t).view.set := by
  have hi0 : (i 0).val < 32 := (i 0).isLt
  have hi1 : (i 1).val < 4096 := (i 1).isLt
  have hN : cfg0.N = 8 := N_0
  obtain ⟨t, ht⟩ : ∃ t : Fin cfg0.N, t.val = 4 * ((i 1).val / 2048) + 3 := ⟨⟨4 * ((i 1).val / 2048) + 3, by omega⟩, rfl⟩
  obtain ⟨-, -, -, -, -, -, -, ⟨e0, e1⟩, -⟩ := Blocks.idx_facts t
  refine ⟨t, (flush0_7 t).mpr (by omega), ?_⟩
  rw [mem_blk]
  intro a
  match a with
  | ⟨0, _⟩ =>
    show win0_7.index t (0 : Fin 2) * 32 ≤ (i 0).val ∧ (i 0).val < win0_7.index t (0 : Fin 2) * 32 + 32
    rw [e0]; omega
  | ⟨1, _⟩ =>
    show win0_7.index t (1 : Fin 2) * 2048 ≤ (i 1).val ∧ (i 1).val < win0_7.index t (1 : Fin 2) * 2048 + 2048
    rw [e1, ht]; omega

/-- The result array after the run: the layer. -/
theorem final (c : Dev nD) : (dats m 0 c).arrAt 7 cfg0.N = layer m c :=
  (dats m 0 c).arrAt_eq_of_cover 7 (layer m c) (flushed_eq m c) covered

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result

end
-- ==== Proof.lean ====
/-
  A linear layer with reparameterized weights and biases, computed two ways.

  Both programs compute, for 32 activation rows `x[b, ·]` of 4096 columns and 4096 outputs,

      out[b, o] = (∑ i, x[b, i] · (mean_w[o, i] + exp(sigma_w[o, i]) · eps_w[o, i])) + (mean_b[o] + exp(sigma_b[o]) · eps_b[o]).

  The reference forms the sampled weights and bias whole and contracts once. The kernel walks a 2 × 4 grid: for
  each half of the outputs it accumulates, over four column tiles of 1024, the tile's product into a zeroed
  accumulator, and after the fourth adds the sampled bias and writes the half back. Over the extended reals the
  exponential, sums and products of the two programs are the same functions, and the only difference — a sum of
  4096 terms against zero plus four sums of 1024 — is a regrouping, which addition on the extended reals allows
  without any finiteness assumption. So the precondition is never opened.

  The modules: Spec (the layer and its tiles, pure mathematics), RefIsLinear (the reference is the layer), Pieces
  (what one body run leaves, as the stored values), PayloadAt (those values at an index), Blocks (the windows' blocks
  as parts of the arrays), Accumulate (the accumulator after every point, by induction), Result (the result array
  after the run). The three frames are the generated ones (the reference's: its generated run with the result
  dropped); the idealization rewrote nothing.
-/
import proofs.«151765_j53558242181640_2_alg».proof.Defs
import proofs.«151765_j53558242181640_2_alg».proof.Proof.Gen.Kernel
import proofs.«151765_j53558242181640_2_alg».proof.Proof.Gen.Kernel.Skeleton
import proofs.«151765_j53558242181640_2_alg».proof.Proof.Gen.Kernel.Launch
import proofs.«151765_j53558242181640_2_alg».proof.Proof.Gen.Kernel.Points
import proofs.«151765_j53558242181640_2_alg».proof.Proof.Gen.Kernel.Frame
import proofs.«151765_j53558242181640_2_alg».proof.Proof.Gen.KernelIdeal
import proofs.«151765_j53558242181640_2_alg».proof.Proof.Gen.KernelIdeal.Skeleton
import proofs.«151765_j53558242181640_2_alg».proof.Proof.Gen.KernelIdeal.Launch
import proofs.«151765_j53558242181640_2_alg».proof.Proof.Gen.KernelIdeal.Points
import proofs.«151765_j53558242181640_2_alg».proof.Proof.Gen.KernelIdeal.Frame
import proofs.«151765_j53558242181640_2_alg».proof.Proof.Gen.ReferenceIdeal
import proofs.«151765_j53558242181640_2_alg».proof.Proof.Gen.Pre_finite_inputs
import proofs.«151765_j53558242181640_2_alg».proof.Proof.Gen.KernelIdeal.Value
import proofs.«151765_j53558242181640_2_alg».proof.Proof.Gen.ReferenceIdeal.Run
import proofs.«151765_j53558242181640_2_alg».proof.Proof.Gen.ReferenceIdeal.Read
import proofs.«151765_j53558242181640_2_alg».proof.Proof.RefIsLinear
import proofs.«151765_j53558242181640_2_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the layer of their arguments, and the arguments agree. -/
theorem algebraic : Cert.algebraic_KernelIdeal_ReferenceIdeal := by
  intro m ρ m' ρ' _ hagree
  refine ⟨fun c => Cert.KernelIdeal.Result.layer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq_linear,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
